-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x2048 .f32) (main_arg1 : FVec F S2048x2048 .f32) (main_arg2 : FVec F S2048 .f32) (main_arg3 : FVec F S2048x64 .f32) (main_arg4 : FVec F S64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S1x2048 : Shape := ⟨2, ![1, 2048]⟩
abbrev S1x64 : Shape := ⟨2, ![1, 64]⟩
abbrev S8192x64 : Shape := ⟨2, ![8192, 64]⟩
abbrev S2048x1 : Shape := ⟨2, ![2048, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64, .f32⟩
  | .hbm, ⟨5, _⟩ => ⟨S1x2048, .f32⟩
  | .hbm, ⟨6, _⟩ => ⟨S1x64, .f32⟩
  | .hbm, ⟨7, _⟩ => ⟨S8192x64, .f32⟩
  | .local _ .vmem, ⟨0, _⟩ => ⟨S2048x2048, .f32⟩
  | .local _ .vmem, ⟨1, _⟩ => ⟨S2048x2048, .f32⟩
  | .local _ .vmem, ⟨2, _⟩ => ⟨S2048x2048, .f32⟩
  | .local _ .vmem, ⟨3, _⟩ => ⟨S1x2048, .f32⟩
  | .local _ .vmem, ⟨4, _⟩ => ⟨S2048x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S1x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048_S1x2048 : S2048.ShapeCasts S1x2048
  shapeCasts_S64_S1x64 : S64.ShapeCasts S1x64
  inb_S2048x2048_S2048x2048_0_0 : ∀ a, (![0, 0] : Fin 2 → Nat) a + S2048x2048.size a ≤ S2048x2048.size a
  h_S2048x2048 : 0 < S2048x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  dot_S2048x2048_S2048x64_S2048x64_1_0_0_1_n_n_wf : DotDims.WF S2048x2048 S2048x64 S2048x64 [1] [0] [0] [1] [] []
  dot_S1x2048_S2048x64_S1x64_1_0_0_1_n_n_wf : DotDims.WF S1x2048 S2048x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .f32 = 32 ∨ (Rect.block (s := S8192x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .f32 = 32 ∨ (Rect.block (s := S8192x64) S2048x64.size (cc0_transform_5 i) (hinb0_5 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S1x2048_S2048x64_S1x64_1_0_0_1_n_n : DotDims S1x2048 S2048x64 S1x64 where
  lhsContracting := [1]
  rhsContracting := [0]
  lhsNonContracting := [0]
  rhsNonContracting := [1]
  lhsBatch := []
  rhsBatch := []
  wf := dot_S1x2048_S2048x64_S1x64_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S1x2048 : Shape := ⟨2, ![1, 2048]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x64, .f32⟩
  | .hbm, ⟨26, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x2048_S2048x2048_S8192x2048_1_0_0_1_n_n_wf : DotDims.WF S8192x2048 S2048x2048 S8192x2048 [1] [0] [0] [1] [] []
  dot_S8192x2048_S2048x64_S8192x64_1_0_0_1_n_n_wf : DotDims.WF S8192x2048 S2048x64 S8192x64 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.KernelPieces.lean ====
/-
  What each of the body's two control cases leaves behind, as values.
  At the first grid point the body stores the fused weight  Wm · Wr  and the fused bias  bm · Wr + br  into its two
  carried scratch buffers and then computes the block's softmax over them; at every later point it only reads the
  scratch. Each buffer is written by one store that covers it, so what it holds afterwards is that store's payload.
-/
import proofs.«177319_g60138132078666_cont_9to1_m_802_15_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The zero offsets of every access in the body: each load and store goes through its whole buffer. -/
theorem hz : (![0, 0] : Fin 2 → Nat) = fun _ => 0 := funext fun a => by fin_cases a <;> rfl

/-- At the first grid point the body leaves, in the carried weight scratch, the product of the two weight blocks:
    its one covering store's payload, whose loads read the whole staging buffers. -/
theorem scratchW_A (c : Dev nD) (i : grid0.Coords) (a1 : Memref sig .tc .vmem S2048x2048 .f32) (h1 : a1.IsWhole) (a2 : Memref sig .tc .vmem S2048x2048 .f32) (h2 : a2.IsWhole) (a3 : Memref sig .tc .vmem S1x2048 .f32) (h3 : a3.IsWhole) (a4 : Memref sig .tc .vmem S2048x64 .f32) (h4 : a4.IsWhole) (a5 : Memref sig .tc .vmem S1x64 .f32) (h5 : a5.IsWhole) (a6 : Memref sig .tc .vmem S2048x64 .f32) (h6 : a6.IsWhole) (a7 : Memref sig .tc .vmem S2048x64 .f32) (h7 : a7.IsWhole) (a8 : Memref sig .tc .vmem S1x64 .f32) (h8 : a8.IsWhole) (hc : cond0_0 i) (x0 : Vec F S2048x2048 .f32) (x1 : Vec F S2048x2048 .f32) (x2 : Vec F S1x2048 .f32) (x3 : Vec F S2048x64 .f32) (x4 : Vec F S1x64 .f32) :
    sout0_A_0 c i a1 h1 a2 h2 a3 h3 a4 h4 a5 h5 a6 h6 a7 h7 a8 h8 hc x0 x1 x2 x3 x4 = k0_pay1 x1 x3 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h4.read_unread, View.ld_unit_zero (S := S2048x2048) hz,
    View.ld_unit_zero (S := S2048x64) hz]

/-- At the first grid point the body leaves, in the carried bias scratch, the first bias row times the second
    weight block plus the second bias row. -/
theorem scratchB_A (c : Dev nD) (i : grid0.Coords) (a1 : Memref sig .tc .vmem S2048x2048 .f32) (h1 : a1.IsWhole) (a2 : Memref sig .tc .vmem S2048x2048 .f32) (h2 : a2.IsWhole) (a3 : Memref sig .tc .vmem S1x2048 .f32) (h3 : a3.IsWhole) (a4 : Memref sig .tc .vmem S2048x64 .f32) (h4 : a4.IsWhole) (a5 : Memref sig .tc .vmem S1x64 .f32) (h5 : a5.IsWhole) (a6 : Memref sig .tc .vmem S2048x64 .f32) (h6 : a6.IsWhole) (a7 : Memref sig .tc .vmem S2048x64 .f32) (h7 : a7.IsWhole) (a8 : Memref sig .tc .vmem S1x64 .f32) (h8 : a8.IsWhole) (hc : cond0_0 i) (x0 : Vec F S2048x2048 .f32) (x1 : Vec F S2048x2048 .f32) (x2 : Vec F S1x2048 .f32) (x3 : Vec F S2048x64 .f32) (x4 : Vec F S1x64 .f32) :
    sout0_A_1 c i a1 h1 a2 h2 a3 h3 a4 h4 a5 h5 a6 h6 a7 h7 a8 h8 hc x0 x1 x2 x3 x4 = k0_pay2 x2 x3 x4 := by
  unfold sout0_A_1
  rw [View.read_writes_eq_canon _ _ _ (scover0_A_1 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h3.read_unread, h4.read_unread, h5.read_unread, View.ld_unit_zero (S := S1x2048) hz,
    View.ld_unit_zero (S := S2048x64) hz, View.ld_unit_zero (S := S1x64) hz]

/-- At the first grid point the output block is the softmax payload of the token block over the two scratch values
    the same point has just stored: the loads of the scratch read back what was stored. -/
theorem out_A (c : Dev nD) (i : grid0.Coords) (a1 : Memref sig .tc .vmem S2048x2048 .f32) (h1 : a1.IsWhole) (a2 : Memref sig .tc .vmem S2048x2048 .f32) (h2 : a2.IsWhole) (a3 : Memref sig .tc .vmem S1x2048 .f32) (h3 : a3.IsWhole) (a4 : Memref sig .tc .vmem S2048x64 .f32) (h4 : a4.IsWhole) (a5 : Memref sig .tc .vmem S1x64 .f32) (h5 : a5.IsWhole) (a6 : Memref sig .tc .vmem S2048x64 .f32) (h6 : a6.IsWhole) (a7 : Memref sig .tc .vmem S2048x64 .f32) (h7 : a7.IsWhole) (a8 : Memref sig .tc .vmem S1x64 .f32) (h8 : a8.IsWhole) (hc : cond0_0 i) (x0 : Vec F S2048x2048 .f32) (x1 : Vec F S2048x2048 .f32) (x2 : Vec F S1x2048 .f32) (x3 : Vec F S2048x64 .f32) (x4 : Vec F S1x64 .f32) :
    out0_A_5 c i a1 h1 a2 h2 a3 h3 a4 h4 a5 h5 a6 h6 a7 h7 a8 h8 hc x0 x1 x2 x3 x4 = k0_pay3 x0 (k0_pay1 x1 x3) (k0_pay2 x2 x3 x4) := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz, View.readCov_unit_zero (S := S2048x64) _ hz, View.readCov_unit_zero (S := S1x64) _ hz]
  simp only [View.readAt_eq_ld, h1.read_unread, h2.read_unread, h3.read_unread, h4.read_unread, h5.read_unread,
    View.ld_unit_zero (S := S2048x2048) hz, View.ld_unit_zero (S := S1x2048) hz, View.ld_unit_zero (S := S2048x64) hz,
    View.ld_unit_zero (S := S1x64) hz]

/-- At every later grid point the output block is the softmax payload of the token block over what the scratch
    held when the point began. -/
theorem out_B (c : Dev nD) (i : grid0.Coords) (a1 : Memref sig .tc .vmem S2048x2048 .f32) (h1 : a1.IsWhole) (a2 : Memref sig .tc .vmem S2048x2048 .f32) (h2 : a2.IsWhole) (a3 : Memref sig .tc .vmem S1x2048 .f32) (h3 : a3.IsWhole) (a4 : Memref sig .tc .vmem S2048x64 .f32) (h4 : a4.IsWhole) (a5 : Memref sig .tc .vmem S1x64 .f32) (h5 : a5.IsWhole) (a6 : Memref sig .tc .vmem S2048x64 .f32) (h6 : a6.IsWhole) (a7 : Memref sig .tc .vmem S2048x64 .f32) (h7 : a7.IsWhole) (a8 : Memref sig .tc .vmem S1x64 .f32) (h8 : a8.IsWhole) (hc : ¬cond0_0 i) (x0 : Vec F S2048x2048 .f32) (x1 : Vec F S2048x2048 .f32) (x2 : Vec F S1x2048 .f32) (x3 : Vec F S2048x64 .f32) (x4 : Vec F S1x64 .f32) (xs0 : Vec F S2048x64 .f32) (xs1 : Vec F S1x64 .f32) :
    out0_B_5 c i a1 h1 a2 h2 a3 h3 a4 h4 a5 h5 a6 h6 a7 h7 a8 h8 hc x0 x1 x2 x3 x4 xs0 xs1 = k0_pay3 x0 xs0 xs1 := by
  unfold out0_B_5
  rw [View.read_writes_eq_canon _ _ _ (cover0_B_5 c i a1 h1 a2 h2 a3 h3 a4 h4 a5 h5 a6 h6 a7 h7 a8 h8 hc x0 x1 x2 x3 x4 xs0 xs1)]
  unfold kernelRun0_B
  dsimp only
  rw [View.canon_unit_zero hz]
  simp only [View.readAt_eq_ld, h1.read_unread, h7.read_unread, h8.read_unread, View.ld_unit_zero (S := S2048x2048) hz,
    View.ld_unit_zero (S := S2048x64) hz, View.ld_unit_zero (S := S1x64) hz]

end Cert.KernelIdeal.Pieces
end
-- ==== Proof.KernelCarried.lean ====
/-
  What the carried scratch and the output block hold after each grid point.
  Point 0 stores the fused weight  Wm · Wr  and the fused bias  bm · Wr + br; no later point stores into either buffer.
  So after EVERY point the scratch holds point 0's two values, and the output block at point t is the softmax payload
  of token block t over them — by induction on the point, never by enumerating the grid.
-/
import proofs.«177319_g60138132078666_cont_9to1_m_802_15_alg».proof.Proof.KernelPieces

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ)

/-- The grid has a first point. -/
theorem grid_pos : 0 < cfg0.N := by rw [show cfg0.N = 4 from N_0]; decide

/-- The fused weight: the product of the two weight blocks as the first point finds them. -/
def fusedWeight (c : Dev nD) : Vec F S2048x64 .f32 :=
  k0_pay1 (iblk m c 1 ⟨0, grid_pos⟩ : Vec F S2048x2048 .f32) (iblk m c 3 ⟨0, grid_pos⟩ : Vec F S2048x64 .f32)

/-- The fused bias: the first bias row through the second weight block, plus the second bias row. -/
def fusedBias (c : Dev nD) : Vec F S1x64 .f32 :=
  k0_pay2 (iblk m c 2 ⟨0, grid_pos⟩ : Vec F S1x2048 .f32) (iblk m c 3 ⟨0, grid_pos⟩ : Vec F S2048x64 .f32)
    (iblk m c 4 ⟨0, grid_pos⟩ : Vec F S1x64 .f32)

/-- After point `n`: the output block is the softmax payload of token block `n` over the fused weight and bias,
    and the two scratch buffers still hold the fused weight and bias. -/
theorem outsAt_eq (c : Dev nD) : ∀ (n : ℕ) (h : n < cfg0.N),
    outsAt0 m c n h = (k0_pay3 (iblk m c 0 ⟨n, h⟩ : Vec F S2048x2048 .f32) (fusedWeight m c) (fusedBias m c),
      fusedWeight m c, fusedBias m c)
  | 0, h => by
    refine (outsAt0_A m c ⟨0, h⟩ rfl).trans ?_
    rw [Pieces.out_A, Pieces.scratchW_A, Pieces.scratchB_A]
    rfl
  | n + 1, h => by
    have hN : cfg0.N = 4 := N_0
    have hB : ¬(⟨n + 1, h⟩ : Fin cfg0.N).val % 4 = 0 := by dsimp only; omega
    rw [outsAt0_B m c ⟨n + 1, h⟩ hB, Pieces.out_B]
    have ih := outsAt_eq c n (Nat.lt_of_succ_lt h)
    show (k0_pay3 _ (outsAt0 m c n _).2.1 (outsAt0 m c n _).2.2, (outsAt0 m c n _).2.1, (outsAt0 m c n _).2.2) = _
    rw [ih]

/-- The output block after point `t`. -/
theorem block_eq (c : Dev nD) (t : Fin cfg0.N) :
    (outsAt0 m c t.val t.isLt).1
      = k0_pay3 (iblk m c 0 t : Vec F S2048x2048 .f32) (fusedWeight m c) (fusedBias m c) := by
  rw [outsAt_eq m c t.val t.isLt]

end Cert.KernelIdeal.Carried

end
-- ==== Proof.MatLaw.lean ====
/-
  The one algebraic law joining the two sides. For real matrices, a product taken after an affine map equals the
  affine map with the weights multiplied first:
    ∑ k, (∑ j, x j * a j k + b k) * w k  =  ∑ j, x j * (∑ k, a j k * w k) + ∑ k, b k * w k
  (distribute the outer factor over the inner sum, exchange the two finite sums, regroup each product). It is stated
  first over ℝ, then over the extended reals for entries that are real numbers: there the law needs every entry
  finite, since a product does not distribute over a sum at the infinities.
-/
import Idealize.ShloMosaic.PureOps.Ideal

open scoped BigOperators

namespace Cert.MatLaw

/-- Distributing the outer product over the inner affine map and exchanging the two finite sums. -/
theorem affine_then_dot {J K : Type*} [Fintype J] [Fintype K] (x : J → ℝ) (a : J → K → ℝ) (b w : K → ℝ) :
    ∑ k, (∑ j, x j * a j k + b k) * w k = ∑ j, x j * (∑ k, a j k * w k) + ∑ k, b k * w k := by
  simp only [add_mul, Finset.sum_add_distrib, Finset.sum_mul, Finset.mul_sum]
  rw [Finset.sum_comm]
  congr 1
  refine Finset.sum_congr rfl fun j _ => Finset.sum_congr rfl fun k _ => ?_
  ring

/-- A finite sum of real numbers, each read as an extended real, is the real sum read as an extended real. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The law on the extended reals, for real entries, with the second bias carried along: both groupings are the
    same real number. -/
theorem affine_then_dot_ereal {J K : Type*} [Fintype J] [Fintype K] (x : J → ℝ) (a : J → K → ℝ) (b w : K → ℝ) (c : ℝ) :
    (∑ k, ((∑ j, (x j : EReal) * (a j k : EReal)) + (b k : EReal)) * (w k : EReal)) + (c : EReal)
      = (∑ j, (x j : EReal) * (∑ k, (a j k : EReal) * (w k : EReal))) + ((∑ k, (b k : EReal) * (w k : EReal)) + (c : EReal)) := by
  simp only [← EReal.coe_mul, coe_sum, ← EReal.coe_add]
  rw [affine_then_dot, add_assoc]

end Cert.MatLaw
-- ==== Proof.Spec.lean ====
/-
  The specification, stated over literal shapes with no program in sight.

  A token row r of x (8192 × 2048) is sent to 64 logits, and the logits to their softmax. The logits can be grouped
  two ways:
    * weights first:   logit r l = ∑ j, x r j * (∑ k, Wm j k * Wr k l) + (∑ k, bm k * Wr k l + br l)
    * token first:     logit r l = ∑ k, (∑ j, x r j * Wm j k + bm k) * Wr k l + br l
  When every entry is a real number the two are equal (MatLaw: distributivity and an exchange of sums). The softmax of
  a row L of 64 extended reals is  exp (L l - M) / ∑ k, exp (L k - M)  with M the maximum of the row, taken as the fold
  of `max` from -∞ (the word 0xFF800000) over the 64 entries.
-/
import Idealize.ShloMosaic.PureOps.Ideal
import Idealize.ShloMosaic.Lib.ValueIdx
import proofs.«177319_g60138132078666_cont_9to1_m_802_15_alg».proof.Proof.MatLaw

noncomputable section

open scoped BigOperators

namespace Cert.Spec

open Idealize.ShloMosaic Idealize.ShloMosaic.ValueIdx

/-- -∞, as the f32 word both programs start their maximum from. -/
abbrev negInf : EReal := Ideal.ofBits .f32 0xFF800000#32

/-- The maximum of a row of 64 logits: the fold of `max` from -∞. -/
def rowMax (L : Fin 64 → EReal) : EReal := (Finset.univ : Finset (Fin 64)).fold max negInf L

/-- The softmax of a row of 64 logits, at entry `l`. -/
def softmaxRow (L : Fin 64 → EReal) (l : Fin 64) : EReal :=
  Ideal.div (Ideal.exp (L l - rowMax L)) (∑ k : Fin 64, Ideal.exp (L k - rowMax L))

/-- Every entry of an array is a real number. -/
def AllReal {s : Shape} (x : s.Idx → EReal) : Prop := ∀ i, ∃ r : ℝ, x i = (r : EReal)

section
variable (x : (⟨2, ![8192, 2048]⟩ : Shape).Idx → EReal) (Wm : (⟨2, ![2048, 2048]⟩ : Shape).Idx → EReal)
  (bm : (⟨1, ![2048]⟩ : Shape).Idx → EReal) (Wr : (⟨2, ![2048, 64]⟩ : Shape).Idx → EReal)
  (br : (⟨1, ![64]⟩ : Shape).Idx → EReal)

/-- The two weight matrices multiplied first: entry (j, l) of Wm · Wr. -/
def fusedW (j : Fin 2048) (l : Fin 64) : EReal := ∑ k : Fin 2048, Wm (ix2 j k) * Wr (ix2 k l)

/-- The two biases folded into one: entry l of bm · Wr + br. -/
def fusedB (l : Fin 64) : EReal := (∑ k : Fin 2048, bm (ix1 k) * Wr (ix2 k l)) + br (ix1 l)

/-- The logits with the weights multiplied first. -/
def logitW (r : Fin 8192) (l : Fin 64) : EReal :=
  (∑ j : Fin 2048, x (ix2 r j) * fusedW Wm Wr j l) + fusedB bm Wr br l

/-- The logits with the token row multiplied first. -/
def logitT (r : Fin 8192) (l : Fin 64) : EReal :=
  (∑ k : Fin 2048, ((∑ j : Fin 2048, x (ix2 r j) * Wm (ix2 j k)) + bm (ix1 k)) * Wr (ix2 k l)) + br (ix1 l)

/-- The result array, weights first. -/
def outW : (⟨2, ![8192, 64]⟩ : Shape).Idx → EReal := fun i => softmaxRow (logitW x Wm bm Wr br (i 0)) (i 1)

/-- The result array, token first. -/
def outT : (⟨2, ![8192, 64]⟩ : Shape).Idx → EReal := fun i => softmaxRow (logitT x Wm bm Wr br (i 0)) (i 1)

variable {x Wm bm Wr br}

/-- With real entries the two groupings of the logits agree. -/
theorem logitT_eq_logitW (hx : AllReal x) (hWm : AllReal Wm) (hbm : AllReal bm) (hWr : AllReal Wr) (hbr : AllReal br)
    (r : Fin 8192) (l : Fin 64) : logitT x Wm bm Wr br r l = logitW x Wm bm Wr br r l := by
  choose x' hx' using hx
  choose a' ha' using hWm
  choose b' hb' using hbm
  choose w' hw' using hWr
  choose c' hc' using hbr
  unfold logitT logitW fusedW fusedB
  simp only [hx', ha', hb', hw', hc']
  exact MatLaw.affine_then_dot_ereal (fun j => x' (ix2 r j)) (fun j k => a' (ix2 j k)) (fun k => b' (ix1 k))
    (fun k => w' (ix2 k l)) (c' (ix1 l))

/-- So the two result arrays agree. -/
theorem outT_eq_outW (hx : AllReal x) (hWm : AllReal Wm) (hbm : AllReal bm) (hWr : AllReal Wr) (hbr : AllReal br) :
    outT x Wm bm Wr br = outW x Wm bm Wr br := by
  funext i
  unfold outT outW
  rw [show logitT x Wm bm Wr br (i 0) = logitW x Wm bm Wr br (i 0) from
    funext fun l => logitT_eq_logitW hx hWm hbm hWr hbr (i 0) l]

end

end Cert.Spec

end
-- ==== Proof.KernelPayload.lean ====
/-
  The body's three payloads read at an index, on the extended reals.
    * the fused weight at (j, l):  ∑ k, Wm j k * Wr k l        (a matrix product into a zero accumulator is the plain sum)
    * the fused bias at (0, l):    ∑ k, bm 0 k * Wr k l + br 0 l
    * the output block at (p, q):  the softmax of row p of the block's logits  ∑ j, x p j * Wf j l + bf 0 l,
      whose row maximum and row sum are lane reductions kept as a column ([2048] → [2048, 1]) and broadcast back
      over the 64 lanes ([2048, 1] → [2048, 64]).
-/
import proofs.«177319_g60138132078666_cont_9to1_m_802_15_alg».proof.Proof.Gen.KernelIdeal.Skeleton
import proofs.«177319_g60138132078666_cont_9to1_m_802_15_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## Keeping a reduced axis as a unit column, and broadcasting the column back -/

section Column
variable {α : Type}

/-- An `[a]` array cast to the column `[a, 1]` reads, at `(p, u)`, the operand at `p`. -/
theorem colCast_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem colBroadcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two matrix products as plain sums -/

theorem dotW_lhs0 (i : S2048x64.Idx) (q : dot_S2048x2048_S2048x64_S2048x64_1_0_0_1_n_n.contr.Idx) : (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem dotW_rhs1 (i : S2048x64.Idx) (q : dot_S2048x2048_S2048x64_S2048x64_1_0_0_1_n_n.contr.Idx) : (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl
/-- A [2048, 2048] block times a [2048, 64] block into the zero accumulator, at (r, l): the sum over the contracted coordinate. -/
theorem dotW_apply (a : FVec Ideal S2048x2048 .f32) (b : FVec Ideal S2048x64 .f32) (r : Fin 2048) (l : Fin 64) :
    matmul (F := Ideal) dot_S2048x2048_S2048x64_S2048x64_1_0_0_1_n_n none a b (constant (F := Ideal) S2048x64 .f32 0x00000000#32) (ix2 r l)
      = ∑ k : Fin 2048, a (ix2 r k) * b (ix2 k l) := by
  simp only [matmul]
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 r l) ((contrEquiv1 dot_S2048x2048_S2048x64_S2048x64_1_0_0_1_n_n 2048 rfl rfl).symm k) = ix2 r k := funext fun a => Fin.ext (by
    match a with
    | ⟨0, _⟩ => exact dotW_lhs0 _ _
    | ⟨1, _⟩ => exact (dot_S2048x2048_S2048x64_S2048x64_1_0_0_1_n_n.lhsIdx_val_of_single rfl _ _).trans hk)
  have er : dot_S2048x2048_S2048x64_S2048x64_1_0_0_1_n_n.rhsIdx (ix2 r l) ((contrEquiv1 dot_S2048x2048_S2048x64_S2048x64_1_0_0_1_n_n 2048 rfl rfl).symm k) = ix2 k l := funext fun a => Fin.ext (by
    match a with
    | ⟨0, _⟩ => exact (dot_S2048x2048_S2048x64_S2048x64_1_0_0_1_n_n.rhsIdx_val_of_single rfl _ _).trans hk
    | ⟨1, _⟩ => exact dotW_rhs1 _ _)
  rw [el, er]

theorem dotB_lhs0 (i : S1x64.Idx) (q : dot_S1x2048_S2048x64_S1x64_1_0_0_1_n_n.contr.Idx) : (dot_S1x2048_S2048x64_S1x64_1_0_0_1_n_n.lhsIdx i q 0).val = (i 0).val := by
  unfold DotDims.lhsIdx
  rw [dif_neg (show ¬(0 : Fin S1x2048.rank) ∈ dot_S1x2048_S2048x64_S1x64_1_0_0_1_n_n.lhsBatch by decide), dif_pos (show (0 : Fin S1x2048.rank) ∈ dot_S1x2048_S2048x64_S1x64_1_0_0_1_n_n.lhsNonContracting by decide)]
  rfl
theorem dotB_rhs1 (i : S1x64.Idx) (q : dot_S1x2048_S2048x64_S1x64_1_0_0_1_n_n.contr.Idx) : (dot_S1x2048_S2048x64_S1x64_1_0_0_1_n_n.rhsIdx i q 1).val = (i 1).val := by
  unfold DotDims.rhsIdx
  rw [dif_neg (show ¬(1 : Fin S2048x64.rank) ∈ dot_S1x2048_S2048x64_S1x64_1_0_0_1_n_n.rhsBatch by decide), dif_pos (show (1 : Fin S2048x64.rank) ∈ dot_S1x2048_S2048x64_S1x64_1_0_0_1_n_n.rhsNonContracting by decide)]
  rfl
/-- A [1, 2048] row times a [2048, 64] block into the zero accumulator, at (0, l): the sum over the contracted coordinate. -/
theorem dotB_apply (a : FVec Ideal S1x2048 .f32) (b : FVec Ideal S2048x64 .f32) (r : Fin 1) (l : Fin 64) :
    matmul (F := Ideal) dot_S1x2048_S2048x64_S1x64_1_0_0_1_n_n none a b (constant (F := Ideal) S1x64 .f32 0x00000000#32) (ix2 r l)
      = ∑ k : Fin 2048, a (ix2 r k) * b (ix2 k l) := by
  simp only [matmul]
  rw [Ideal.matmul_constant_zero_apply, ← Equiv.sum_comp (contrEquiv1 dot_S1x2048_S2048x64_S1x64_1_0_0_1_n_n 2048 rfl rfl).symm]
  refine Finset.sum_congr rfl fun k _ => ?_
  have hk := contrEquiv1_symm_val dot_S1x2048_S2048x64_S1x64_1_0_0_1_n_n 2048 rfl rfl k
  have el : dot_S1x2048_S2048x64_S1x64_1_0_0_1_n_n.lhsIdx (ix2 r l) ((contrEquiv1 dot_S1x2048_S2048x64_S1x64_1_0_0_1_n_n 2048 rfl rfl).symm k) = ix2 r k := funext fun a => Fin.ext (by
    match a with
    | ⟨0, _⟩ => exact dotB_lhs0 _ _
    | ⟨1, _⟩ => exact (dot_S1x2048_S2048x64_S1x64_1_0_0_1_n_n.lhsIdx_val_of_single rfl _ _).trans hk)
  have er : dot_S1x2048_S2048x64_S1x64_1_0_0_1_n_n.rhsIdx (ix2 r l) ((contrEquiv1 dot_S1x2048_S2048x64_S1x64_1_0_0_1_n_n 2048 rfl rfl).symm k) = ix2 k l := funext fun a => Fin.ext (by
    match a with
    | ⟨0, _⟩ => exact (dot_S1x2048_S2048x64_S1x64_1_0_0_1_n_n.rhsIdx_val_of_single rfl _ _).trans hk
    | ⟨1, _⟩ => exact dotB_rhs1 _ _)
  rw [el, er]

/-! ## The scratch payloads -/

/-- The fused weight at (j, l). -/
theorem pay1_apply (a : FVec Ideal S2048x2048 .f32) (b : FVec Ideal S2048x64 .f32) (j : Fin 2048) (l : Fin 64) :
    k0_pay1 (F := Ideal) a b (ix2 j l) = ∑ k : Fin 2048, a (ix2 j k) * b (ix2 k l) := by
  unfold k0_pay1
  rw [shapeCast_self]
  exact dotW_apply a b j l

/-- The fused bias at (0, l). -/
theorem pay2_apply (v : FVec Ideal S1x2048 .f32) (w : FVec Ideal S2048x64 .f32) (u : FVec Ideal S1x64 .f32) (z : Fin 1) (l : Fin 64) :
    k0_pay2 (F := Ideal) v w u (ix2 z l) = (∑ k : Fin 2048, v (ix2 z k) * w (ix2 k l)) + u (ix2 z l) := by
  unfold k0_pay2
  simp only [shapeCast_self]
  exact congrArg (· + u (ix2 z l)) (dotB_apply v w z l)

/-! ## The output payload: a block of logits, then the row softmax -/

/-- The block's logits: the token block through the fused weight, plus the fused bias on every row. -/
def blockLogits (x : FVec Ideal S2048x2048 .f32) (wf : FVec Ideal S2048x64 .f32) (bf : FVec Ideal S1x64 .f32) : FVec Ideal S2048x64 .f32 :=
  addf (matmul (F := Ideal) dot_S2048x2048_S2048x64_S2048x64_1_0_0_1_n_n none x wf (constant (F := Ideal) S2048x64 .f32 0x00000000#32))
    (broadcastTo S2048x64 bf broadcasts_S1x64_S2048x64)

theorem blockLogits_apply (x : FVec Ideal S2048x2048 .f32) (wf : FVec Ideal S2048x64 .f32) (bf : FVec Ideal S1x64 .f32) (p : Fin 2048) (l : Fin 64) :
    blockLogits x wf bf (ix2 p l) = (∑ j : Fin 2048, x (ix2 p j) * wf (ix2 j l)) + bf (ix2 (0 : Fin 1) l) := by
  show matmul (F := Ideal) dot_S2048x2048_S2048x64_S2048x64_1_0_0_1_n_n none x wf (constant (F := Ideal) S2048x64 .f32 0x00000000#32) (ix2 p l)
    + broadcastTo S2048x64 bf broadcasts_S1x64_S2048x64 (ix2 p l) = _
  rw [dotW_apply, broadcastTo_1b_ab_apply]

/-- A reduced row index with lane `k` put back is (p, k). -/
theorem lift_eq (p : Fin 2048) (k : Fin (S2048x64.size 1)) :
    reduces_S2048x64_S2048.lift (ix1 p) k = ix2 p (⟨k.val, k.isLt⟩ : Fin 64) := by
  funext c; apply Fin.ext
  fin_cases c <;> rfl

/-- A lane maximum from -∞, at row p: the row's maximum. -/
theorem rowMax_of_block (L : FVec Ideal S2048x64 .f32) (p : Fin 2048) :
    multiReduction (F := Ideal) .maximumf [1] S2048 L 0xFF800000#32 reduces_S2048x64_S2048 (.inl rfl) rfl (ix1 p)
      = Spec.rowMax (fun l => L (ix2 p l)) := by
  refine (Ideal.multiReduction_maximumf_single L 0xFF800000#32 reduces_S2048x64_S2048 (.inl rfl) rfl (ix1 p)).trans ?_
  have hf : (L ∘ reduces_S2048x64_S2048.lift (ix1 p)) = fun l : Fin 64 => L (ix2 p l) :=
    funext fun k => congrArg L (lift_eq p k)
  rw [hf]
  rfl

/-- A lane sum, at row p: the sum of the row. -/
theorem rowSum_of_block (E : FVec Ideal S2048x64 .f32) (p : Fin 2048) :
    multiReduction (F := Ideal) .add [1] S2048 E 0x00000000#32 reduces_S2048x64_S2048 (.inl rfl) rfl (ix1 p)
      = ∑ k : Fin 64, E (ix2 p k) := by
  refine (Ideal.multiReduction_add_single E 0x00000000#32 reduces_S2048x64_S2048 (.inl rfl) rfl (ix1 p)).trans ?_
  exact Finset.sum_congr rfl fun k _ => congrArg E (lift_eq p k)

/-- The row maxima, kept as a column and broadcast back over the lanes. -/
def maxB (L : FVec Ideal S2048x64 .f32) : FVec Ideal S2048x64 .f32 :=
  broadcastTo S2048x64 (shapeCast S2048x1
    (multiReduction (F := Ideal) .maximumf [1] S2048 L 0xFF800000#32 reduces_S2048x64_S2048 (.inl rfl) rfl) shapeCasts_S2048_S2048x1)
    broadcasts_S2048x1_S2048x64

theorem maxB_apply (L : FVec Ideal S2048x64 .f32) (p : Fin 2048) (c : Fin 64) :
    maxB L (ix2 p c) = Spec.rowMax (fun l => L (ix2 p l)) :=
  (colBroadcast_apply _ broadcasts_S2048x1_S2048x64 p c).trans
    ((colCast_apply _ shapeCasts_S2048_S2048x1 p 0).trans (rowMax_of_block L p))

/-- The shifted exponentials. -/
def expB (L : FVec Ideal S2048x64 .f32) : FVec Ideal S2048x64 .f32 := exp (subf L (maxB L))

theorem expB_apply (L : FVec Ideal S2048x64 .f32) (p : Fin 2048) (c : Fin 64) :
    expB L (ix2 p c) = Ideal.exp (L (ix2 p c) - Spec.rowMax (fun l => L (ix2 p l))) := by
  show Ideal.exp (L (ix2 p c) - maxB L (ix2 p c)) = _
  rw [maxB_apply]

/-- Their row sums, kept as a column and broadcast back over the lanes. -/
def sumB (L : FVec Ideal S2048x64 .f32) : FVec Ideal S2048x64 .f32 :=
  broadcastTo S2048x64 (shapeCast S2048x1
    (multiReduction (F := Ideal) .add [1] S2048 (expB L) 0x00000000#32 reduces_S2048x64_S2048 (.inl rfl) rfl) shapeCasts_S2048_S2048x1)
    broadcasts_S2048x1_S2048x64

theorem sumB_apply (L : FVec Ideal S2048x64 .f32) (p : Fin 2048) (c : Fin 64) :
    sumB L (ix2 p c) = ∑ k : Fin 64, Ideal.exp (L (ix2 p k) - Spec.rowMax (fun l => L (ix2 p l))) := by
  refine (colBroadcast_apply _ broadcasts_S2048x1_S2048x64 p c).trans
    ((colCast_apply _ shapeCasts_S2048_S2048x1 p 0).trans ((rowSum_of_block (expB L) p).trans ?_))
  simp only [expB_apply]

/-- The block softmax. -/
def softmaxBlock (L : FVec Ideal S2048x64 .f32) : FVec Ideal S2048x64 .f32 := divf (expB L) (sumB L)

theorem softmaxBlock_apply (L : FVec Ideal S2048x64 .f32) (p : Fin 2048) (q : Fin 64) :
    softmaxBlock L (ix2 p q) = Spec.softmaxRow (fun l => L (ix2 p l)) q := by
  show Ideal.div (expB L (ix2 p q)) (sumB L (ix2 p q)) = _
  rw [expB_apply, sumB_apply]
  rfl

/-- The output payload is the block softmax of the block's logits (its operations, named). -/
theorem pay3_eq (x : FVec Ideal S2048x2048 .f32) (wf : FVec Ideal S2048x64 .f32) (bf : FVec Ideal S1x64 .f32) :
    k0_pay3 (F := Ideal) x wf bf = softmaxBlock (blockLogits x wf bf) := rfl

/-- THE OUTPUT BLOCK at (p, q): the softmax of row p's logits. -/
theorem pay3_apply (x : FVec Ideal S2048x2048 .f32) (wf : FVec Ideal S2048x64 .f32) (bf : FVec Ideal S1x64 .f32) (p : Fin 2048) (q : Fin 64) :
    k0_pay3 (F := Ideal) x wf bf (ix2 p q)
      = Spec.softmaxRow (fun l => (∑ j : Fin 2048, x (ix2 p j) * wf (ix2 j l)) + bf (ix2 (0 : Fin 1) l)) q := by
  rw [pay3_eq, softmaxBlock_apply]
  simp only [blockLogits_apply]

end Cert.KernelIdeal.Payload

end
-- ==== Proof.KernelValue.lean ====
/-
  From blocks to the array: what the kernel's result array holds after the run.
  Token block t is rows 2048·t … 2048·t + 2047 of x; the two weight windows and the two bias windows are whole arrays
  at every point; the biases arrive as [1, n] rows (reshaped before the launch). So the fused weight and bias the
  first point stores are  Wm · Wr  and  bm · Wr + br  of the argument arrays, the block point t writes back is rows
  2048·t … of the weights-first specification, and the four blocks tile the 8192 rows: the row r is in block r / 2048.
-/
import proofs.«177319_g60138132078666_cont_9to1_m_802_15_alg».proof.Proof.KernelCarried
import proofs.«177319_g60138132078666_cont_9to1_m_802_15_alg».proof.Proof.KernelPayload
import proofs.«177319_g60138132078666_cont_9to1_m_802_15_alg».proof.Proof.Gen.KernelIdeal.Value
import Idealize.ShloMosaic.Lib.Pipeline.Value
import Idealize.ShloMosaic.Lib.ValueLayout
import Idealize.ShloMosaic.Lib.StableHlo.Run

noncomputable section

open scoped BigOperators

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The printed index maps, decided over the four grid points: the token window and the output window are at block
    row t, every other window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 2048·t + p of the array. -/
def rowOf (t : Fin cfg0.N) (p : Fin 2048) : Fin 8192 :=
  ⟨2048 * t.val + p.val, by have hN : cfg0.N = 4 := N_0; have := t.isLt; have := p.isLt; omega⟩

/-! ## What each window's block reads -/

/-- The token block at point t, entry (p, j): x at row 2048·t + p. -/
theorem tokens_read (c : Dev nD) (t : Fin cfg0.N) (p j : Fin 2048) :
    (iblk m c 0 t : Vec Ideal S2048x2048 .f32) (ix2 p j) = V m c main_arg0 (ix2 (rowOf t p) j) := by
  obtain ⟨e0, e1, -⟩ := idx_facts t
  unfold iblk
  rw [View.read_apply]
  show V m c main_arg0 _ = V m c main_arg0 _
  refine congrArg (V m c main_arg0) (funext fun ax => Fin.ext ?_)
  match ax with
  | ⟨0, _⟩ => show win0_0.index t (0 : Fin 2) * 2048 + 1 * p.val = 2048 * t.val + p.val; rw [e0]; omega
  | ⟨1, _⟩ => show win0_0.index t (1 : Fin 2) * 2048 + 1 * j.val = j.val; rw [e1]; omega

/-- The first weight window's block is the whole first weight. -/
theorem weight1_read (c : Dev nD) (t : Fin cfg0.N) (a : Fin 2048) (b : Fin 2048) :
    (iblk m c 1 t : Vec Ideal S2048x2048 .f32) (ix2 a b) = V m c main_arg1 (ix2 a b) := by
  obtain ⟨-, -, w10, w11, w20, w21, w30, w31, w40, w41, -, -⟩ := idx_facts t
  unfold iblk
  rw [View.read_apply]
  show V m c main_arg1 _ = V m c main_arg1 _
  refine congrArg (V m c main_arg1) (funext fun ax => Fin.ext ?_)
  match ax with
  | ⟨0, _⟩ => show win0_1.index t (0 : Fin 2) * 2048 + 1 * a.val = a.val; rw [w10]; omega
  | ⟨1, _⟩ => show win0_1.index t (1 : Fin 2) * 2048 + 1 * b.val = b.val; rw [w11]; omega

/-- The first bias window's block is the whole [1, 2048] row. -/
theorem bias1_read (c : Dev nD) (t : Fin cfg0.N) (a : Fin 1) (b : Fin 2048) :
    (iblk m c 2 t : Vec Ideal S1x2048 .f32) (ix2 a b) = V m c main_v0 (ix2 a b) := by
  obtain ⟨-, -, w10, w11, w20, w21, w30, w31, w40, w41, -, -⟩ := idx_facts t
  unfold iblk
  rw [View.read_apply]
  show V m c main_v0 _ = V m c main_v0 _
  refine congrArg (V m c main_v0) (funext fun ax => Fin.ext ?_)
  match ax with
  | ⟨0, _⟩ => show win0_2.index t (0 : Fin 2) * 1 + 1 * a.val = a.val; rw [w20]; omega
  | ⟨1, _⟩ => show win0_2.index t (1 : Fin 2) * 2048 + 1 * b.val = b.val; rw [w21]; omega

/-- The second weight window's block is the whole second weight. -/
theorem weight2_read (c : Dev nD) (t : Fin cfg0.N) (a : Fin 2048) (b : Fin 64) :
    (iblk m c 3 t : Vec Ideal S2048x64 .f32) (ix2 a b) = V m c main_arg3 (ix2 a b) := by
  obtain ⟨-, -, w10, w11, w20, w21, w30, w31, w40, w41, -, -⟩ := idx_facts t
  unfold iblk
  rw [View.read_apply]
  show V m c main_arg3 _ = V m c main_arg3 _
  refine congrArg (V m c main_arg3) (funext fun ax => Fin.ext ?_)
  match ax with
  | ⟨0, _⟩ => show win0_3.index t (0 : Fin 2) * 2048 + 1 * a.val = a.val; rw [w30]; omega
  | ⟨1, _⟩ => show win0_3.index t (1 : Fin 2) * 64 + 1 * b.val = b.val; rw [w31]; omega

/-- The second bias window's block is the whole [1, 64] row. -/
theorem bias2_read (c : Dev nD) (t : Fin cfg0.N) (a : Fin 1) (b : Fin 64) :
    (iblk m c 4 t : Vec Ideal S1x64 .f32) (ix2 a b) = V m c main_v1 (ix2 a b) := by
  obtain ⟨-, -, w10, w11, w20, w21, w30, w31, w40, w41, -, -⟩ := idx_facts t
  unfold iblk
  rw [View.read_apply]
  show V m c main_v1 _ = V m c main_v1 _
  refine congrArg (V m c main_v1) (funext fun ax => Fin.ext ?_)
  match ax with
  | ⟨0, _⟩ => show win0_4.index t (0 : Fin 2) * 1 + 1 * a.val = a.val; rw [w40]; omega
  | ⟨1, _⟩ => show win0_4.index t (1 : Fin 2) * 64 + 1 * b.val = b.val; rw [w41]; omega

/-! ## The two bias rows, as the launch finds them: the argument vectors reshaped -/

theorem bias1_entry (c : Dev nD) :
    (V m c main_v0 : S1x2048.Idx → EReal) = shapeCast S1x2048 (m ((c : Thread nD τ).loc main_arg2)) shapeCasts_S2048_S1x2048 := by
  dsimp only [Gen.V, Gen.hostOps0]; after_results; rfl

theorem bias2_entry (c : Dev nD) :
    (V m c main_v1 : S1x64.Idx → EReal) = shapeCast S1x64 (m ((c : Thread nD τ).loc main_arg4)) shapeCasts_S64_S1x64 := by
  dsimp only [Gen.V, Gen.hostOps0]; after_results; rfl

theorem bias1_at (c : Dev nD) (t : Fin cfg0.N) (k : Fin 2048) :
    (iblk m c 2 t : Vec Ideal S1x2048 .f32) (ix2 (0 : Fin 1) k) = (m ((c : Thread nD τ).loc main_arg2)) (ix1 k) := by
  rw [bias1_read, bias1_entry]
  exact shapeCast_a_1a_apply _ _ 0 k

theorem bias2_at (c : Dev nD) (t : Fin cfg0.N) (l : Fin 64) :
    (iblk m c 4 t : Vec Ideal S1x64 .f32) (ix2 (0 : Fin 1) l) = (m ((c : Thread nD τ).loc main_arg4)) (ix1 l) := by
  rw [bias2_read, bias2_entry]
  exact shapeCast_a_1a_apply _ _ 0 l

/-! ## The carried scratch, of the argument arrays -/

/-- The fused weight is Wm · Wr. -/
theorem fusedWeight_apply (c : Dev nD) (j : Fin 2048) (l : Fin 64) :
    Carried.fusedWeight m c (ix2 j l) = Spec.fusedW (V m c main_arg1) (V m c main_arg3) j l := by
  unfold Carried.fusedWeight Spec.fusedW
  refine (Payload.pay1_apply _ _ j l).trans ?_
  exact Finset.sum_congr rfl fun k _ => by rw [weight1_read, weight2_read]

/-- The fused bias is bm · Wr + br. -/
theorem fusedBias_apply (c : Dev nD) (l : Fin 64) :
    Carried.fusedBias m c (ix2 (0 : Fin 1) l)
      = Spec.fusedB (m ((c : Thread nD τ).loc main_arg2)) (V m c main_arg3) (m ((c : Thread nD τ).loc main_arg4)) l := by
  unfold Carried.fusedBias Spec.fusedB
  refine (Payload.pay2_apply _ _ _ 0 l).trans ?_
  rw [bias2_at]
  exact congrArg (· + _) (Finset.sum_congr rfl fun k _ => by rw [bias1_at, weight2_read])

/-! ## Each written-back block, and the cover -/

/-- The result array, as a function of the arrays the launch finds. -/
abbrev result (c : Dev nD) : S8192x64.Idx → EReal :=
  Spec.outW (V m c main_arg0) (V m c main_arg1) (m ((c : Thread nD τ).loc main_arg2)) (V m c main_arg3) (m ((c : Thread nD τ).loc main_arg4))

/-- WHAT POINT t WRITES BACK is block t of the weights-first specification. -/
theorem flushed_eq (c : Dev nD) (t : Fin cfg0.N) :
    (dats m 0 c).flushed 5 t = ((cfg0.win 5).blk t).view.read (Elt Ideal) (result m c) := by
  rw [Value.flushed5, Carried.block_eq]
  obtain ⟨-, -, -, -, -, -, -, -, -, -, e0, e1⟩ := idx_facts t
  refine funext fun (y : S2048x64.Idx) => ?_
  obtain ⟨p, q, rfl⟩ : ∃ (p : Fin 2048) (q : Fin 64), y = ix2 p q := ⟨y 0, y 1, eq_ix2 y⟩
  have hemb : ((cfg0.win 5).blk t).view.emb (ix2 p q) = ix2 (rowOf t p) q := by
    funext ax; apply Fin.ext
    match ax with
    | ⟨0, _⟩ => show win0_5.index t (0 : Fin 2) * 2048 + 1 * p.val = 2048 * t.val + p.val; rw [e0]; omega
    | ⟨1, _⟩ => show win0_5.index t (1 : Fin 2) * 64 + 1 * q.val = q.val; rw [e1]; omega
  show k0_pay3 (F := Ideal) (iblk m c 0 t) (Carried.fusedWeight m c) (Carried.fusedBias m c) (ix2 p q)
    = result m c (((cfg0.win 5).blk t).view.emb (ix2 p q))
  rw [hemb]
  refine (Payload.pay3_apply _ _ _ p q).trans ?_
  show Spec.softmaxRow _ q = Spec.softmaxRow (Spec.logitW _ _ _ _ _ (rowOf t p)) q
  refine congrArg (fun L => Spec.softmaxRow L q) (funext fun l => ?_)
  unfold Spec.logitW
  rw [fusedBias_apply]
  exact congrArg (· + _) (Finset.sum_congr rfl fun j _ => by rw [tokens_read, fusedWeight_apply])

/-- An index of the array is in point t's block iff each coordinate is in the block's range on its axis. -/
theorem mem_blk (t : Fin cfg0.N) (i : S8192x64.Idx) :
    i ∈ ((cfg0.win 5).blk t).view.set ↔ ∀ a : Fin 2, win0_5.index t a * S2048x64.size a ≤ (i a).val
      ∧ (i a).val < win0_5.index t a * S2048x64.size a + S2048x64.size a := by
  show i ∈ ((View.whole main_v2).slice (win0_5.rect t)).set ↔ _
  rw [View.set_slice_whole, Rect.mem_set_unit]
  exact Iff.rfl

/-- Row r of the array is in the block of point r / 2048. -/
theorem cover (i : S8192x64.Idx) : ∃ t : Fin cfg0.N, (cfg0.win 5).flush t = true ∧ i ∈ ((cfg0.win 5).blk t).view.set := by
  have hN : cfg0.N = 4 := N_0
  have h0 : (i 0).val < 8192 := (i 0).isLt
  have h1 : (i 1).val < 64 := (i 1).isLt
  obtain ⟨t, ht⟩ : ∃ t : Fin cfg0.N, t.val = (i 0).val / 2048 := ⟨⟨(i 0).val / 2048, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 64 ≤ (i 1).val ∧ (i 1).val < win0_5.index t (1 : Fin 2) * 64 + 64
    rw [e1]; omega

/-- THE RESULT ARRAY after the run: the weights-first specification of the arrays the launch finds. -/
theorem final (c : Dev nD) : (dats m 0 c).arrAt 5 cfg0.N = result m c :=
  (dats m 0 c).arrAt_eq_of_cover 5 (result m c) (fun t _ => flushed_eq m c t) cover

/-- … which are the argument arrays as launched. -/
theorem result_eq (c : Dev nD) : result m c
    = Spec.outW (m ((c : Thread nD τ).loc main_arg0)) (m ((c : Thread nD τ).loc main_arg1)) (m ((c : Thread nD τ).loc main_arg2)) (m ((c : Thread nD τ).loc main_arg3)) (m ((c : Thread nD τ).loc main_arg4)) := by
  unfold result
  rw [V_main_arg0, V_main_arg1, V_main_arg3]

/-- THE RUN, READ: the result array at the weights-first specification of the arguments, the arguments unchanged. -/
theorem run : θ_run defs (onTc (τ := τ) (main (F := Ideal))) ⟨m, fun _ => 0, ρ⟩ fun r => ∀ c : Dev nD,
      r.2.mem ((c : Thread nD τ).loc main_v2)
        = Spec.outW (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_eq m c)), (h c).2⟩)
    (Value.run_blocks m ρ)

end Cert.KernelIdeal.RunValue

end
-- ==== Proof.RefValue.lean ====
/-
  The reference's result, index by index, is the specification with the token row multiplied first.
  Row r, column l of the result is  exp (L l - M) / (0 + ∑ k, exp (L k - M))  where L = logits of row r,
    L l = ∑ k, (∑ j, x r j * Wm j k + bm k) * Wr k l + br l,
  and M = max (-∞) (the row's maximum taken from -∞). The outer `max` against -∞ and the sum's initial 0 are both
  identities on the extended reals, which leaves the row softmax.
-/
import proofs.«177319_g60138132078666_cont_9to1_m_802_15_alg».proof.Proof.Gen.ReferenceIdeal.Read
import proofs.«177319_g60138132078666_cont_9to1_m_802_15_alg».proof.Proof.Spec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S8192x2048, .f32⟩ : BufTy).Contents (Elt Ideal)) (x1 : (⟨S2048x2048, .f32⟩ : BufTy).Contents (Elt Ideal))
  (x2 : (⟨S2048, .f32⟩ : BufTy).Contents (Elt Ideal)) (x3 : (⟨S2048x64, .f32⟩ : BufTy).Contents (Elt Ideal))
  (x4 : (⟨S64, .f32⟩ : BufTy).Contents (Elt Ideal))

/-! ## Where each stage reads its operands -/

/-- The second product at (r, l), term k, reads the first stage's sum at (r, k) … -/
theorem lidx4 (r : Fin 8192) (l : Fin 64) (k : Fin 2048) : lidx_main_v4 (ix2 r l) k = ix2 r k :=
  funext fun a => Fin.ext (by match a with | ⟨0, _⟩ => rfl | ⟨1, _⟩ => rfl)
/-- … and the second weight at (k, l). -/
theorem ridx4 (r : Fin 8192) (l : Fin 64) (k : Fin 2048) : ridx_main_v4 (ix2 r l) k = ix2 k l :=
  funext fun a => Fin.ext (by match a with | ⟨0, _⟩ => rfl | ⟨1, _⟩ => rfl)
/-- The first product at (r, k), term j, reads x at (r, j) … -/
theorem lidx0 (r : Fin 8192) (k j : Fin 2048) : lidx_main_v0 (ix2 r k) j = ix2 r j :=
  funext fun a => Fin.ext (by match a with | ⟨0, _⟩ => rfl | ⟨1, _⟩ => rfl)
/-- … and the first weight at (j, k). -/
theorem ridx0 (r : Fin 8192) (k j : Fin 2048) : ridx_main_v0 (ix2 r k) j = ix2 j k :=
  funext fun a => Fin.ext (by match a with | ⟨0, _⟩ => rfl | ⟨1, _⟩ => rfl)
/-- The first bias broadcast over rows reads entry k at (r, k). -/
theorem idx2 (r : Fin 8192) (k : Fin 2048) : idx_main_v1 (idx_main_v2 (ix2 r k)) = ix1 k :=
  funext fun a => Fin.ext (by match a with | ⟨0, _⟩ => rfl)
/-- The second bias broadcast over rows reads entry l at (r, l). -/
theorem idx6 (r : Fin 8192) (l : Fin 64) : idx_main_v5 (idx_main_v6 (ix2 r l)) = ix1 l :=
  funext fun a => Fin.ext (by match a with | ⟨0, _⟩ => rfl)
/-- A row statistic broadcast back over the 64 columns reads row r at (r, l). -/
theorem idx12 (r : Fin 8192) (l : Fin 64) : idx_main_v11 (idx_main_v12 (ix2 r l)) = ix1 r :=
  funext fun a => Fin.ext (by match a with | ⟨0, _⟩ => rfl)
theorem idx17 (r : Fin 8192) (l : Fin 64) : idx_main_v16 (idx_main_v17 (ix2 r l)) = ix1 r :=
  funext fun a => Fin.ext (by match a with | ⟨0, _⟩ => rfl)
/-- The row sum at r, term k, reads (r, k). -/
theorem idx15 (r : Fin 8192) (k : Fin 64) : idx_main_v15 (ix1 r) k = ix2 r k :=
  funext fun a => Fin.ext (by match a with | ⟨0, _⟩ => rfl | ⟨1, _⟩ => rfl)

/-! ## The stages -/

/-- The logits: the token row multiplied first. -/
theorem logits_apply (r : Fin 8192) (l : Fin 64) :
    val_main_v7 (F := Ideal) x0 x1 x2 x3 x4 (ix2 r l) = Spec.logitT x0 x1 x2 x3 x4 r l := by
  rw [val_main_v7_apply, val_main_v4_apply, val_main_v6_apply, val_main_v5_apply]
  simp only [lidx4, ridx4, idx6, val_main_v3_apply, val_main_v0_apply, val_main_v2_apply, val_main_v1_apply, lidx0, ridx0, idx2]
  rfl

/-- The reduced index r with column k put back is (r, k). -/
theorem lift_eq (h : S8192x64.Reduces [1] S8192) (r : Fin 8192) (k : Fin (S8192x64.size 1)) :
    h.lift (ix1 r) k = ix2 r (⟨k.val, k.isLt⟩ : Fin 64) := by
  funext c; apply Fin.ext
  fin_cases c <;> rfl

/-- -∞ is the least extended real. -/
theorem max_negInf (y : EReal) : max (Ideal.ofBits .f32 0xFF800000#32) y = y := by
  simp [Ideal.ofBits, Ideal.ieee]

/-- The row maximum, with the reference's extra `max` against -∞ absorbed. -/
theorem rowMax_apply (r : Fin 8192) :
    val_main_v10 (F := Ideal) x0 x1 x2 x3 x4 (ix1 r) = Spec.rowMax (Spec.logitT x0 x1 x2 x3 x4 r) := by
  have h : S8192x64.Reduces [1] S8192 := by decide
  rw [val_main_v10_apply, val_main_v9_apply, val_main_cst_0_apply]
  unfold val_main_v8
  rw [Host.reduce_eq_fold_single FloatOps.maximumf _ _ reducesTo_S8192x64_S8192_d1 h h_S_]
  show max (Ideal.ofBits .f32 0xFF800000#32) _ = _
  rw [max_negInf]
  have hf : (val_main_v7 (F := Ideal) x0 x1 x2 x3 x4 ∘ h.lift (ix1 r)) = Spec.logitT x0 x1 x2 x3 x4 r :=
    funext fun k => by
      show val_main_v7 (F := Ideal) x0 x1 x2 x3 x4 (h.lift (ix1 r) k) = _
      rw [lift_eq, logits_apply]
      rfl
  rw [hf]
  rfl

/-- The shifted exponentials. -/
theorem exps_apply (r : Fin 8192) (l : Fin 64) :
    val_main_v14 (F := Ideal) x0 x1 x2 x3 x4 (ix2 r l)
      = Ideal.exp (Spec.logitT x0 x1 x2 x3 x4 r l - Spec.rowMax (Spec.logitT x0 x1 x2 x3 x4 r)) := by
  rw [val_main_v14_apply, val_main_v13_apply, val_main_v12_apply, val_main_v11_apply, idx12, logits_apply, rowMax_apply]
  rfl

/-- Their row sum, the initial 0 absorbed. -/
theorem sum_apply (r : Fin 8192) :
    val_main_v15 (F := Ideal) x0 x1 x2 x3 x4 (ix1 r)
      = ∑ k : Fin 64, Ideal.exp (Spec.logitT x0 x1 x2 x3 x4 r k - Spec.rowMax (Spec.logitT x0 x1 x2 x3 x4 r)) := by
  rw [val_main_v15_apply, val_main_cst_1_apply]
  simp only [idx15, exps_apply]
  show Ideal.ofBits .f32 0x00000000#32 + _ = _
  rw [Ideal.ofBits_zero_f32, zero_add]

/-- THE REFERENCE'S RESULT is the token-first specification. -/
theorem result_eq : val_main_v18 (F := Ideal) x0 x1 x2 x3 x4 = Spec.outT x0 x1 x2 x3 x4 := by
  funext i
  obtain ⟨r, l, rfl⟩ : ∃ (r : Fin 8192) (l : Fin 64), i = ix2 r l := ⟨i 0, i 1, eq_ix2 i⟩
  rw [val_main_v18_apply, val_main_v17_apply, val_main_v16_apply, idx17, exps_apply, sum_apply]
  rfl

end Cert.ReferenceIdeal.RefValue

end
-- ==== Proof.Finite.lean ====
/-
  From the precondition to finiteness. The precondition is the conjunction, over the five arguments, of
  "every entry has absolute value below +∞". An extended real whose absolute value is below +∞ is neither
  infinity, so it is a real number: that is what distributivity of the matrix products needs.
-/
import proofs.«177319_g60138132078666_cont_9to1_m_802_15_alg».proof.Pre_finite_inputs
import proofs.«177319_g60138132078666_cont_9to1_m_802_15_alg».proof.Proof.Gen.Pre_finite_inputs
import proofs.«177319_g60138132078666_cont_9to1_m_802_15_alg».proof.Proof.Spec
import Idealize.ShloMosaic.Lib.ReduceAll
import Idealize.ShloMosaic.Lib.ValueIdx

noncomputable section

namespace Cert.Pre_finite_inputs.Finite

open Idealize.ShloMosaic Idealize.ShloMosaic.ValueIdx Cert.Pre_finite_inputs Cert.Pre_finite_inputs.Facts

/-- The scalar shape has one index. -/
instance : Subsingleton S_.Idx := ⟨fun a b => funext fun d => d.elim0⟩

/-- An extended real whose absolute value is below +∞ (the word 0x7F800000) is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

/-- One conjunct: "all entries of |a| are below +∞" gives every entry of `a` real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) : Spec.AllReal a := fun i =>
  real_of_abs_lt (a i) (Host.reduce_andi_all _ _ hr hu ix0 e i)

/-- THE PRECONDITION gives every entry of every argument real. -/
theorem allReal_of_pre (a0 : FVec Ideal S8192x2048 .f32) (a1 : FVec Ideal S2048x2048 .f32) (a2 : FVec Ideal S2048 .f32)
    (a3 : FVec Ideal S2048x64 .f32) (a4 : FVec Ideal S64 .f32) (h : fn (F := Ideal) a0 a1 a2 a3 a4 = fun _ => 1#1) :
    Spec.AllReal a0 ∧ Spec.AllReal a1 ∧ Spec.AllReal a2 ∧ Spec.AllReal a3 ∧ Spec.AllReal a4 := by
  have h0 := congrFun h ix0
  dsimp only [fn, fn_part1] at h0
  obtain ⟨h0123, r4⟩ := IntOp.andi_eq_one.1 h0
  obtain ⟨h012, r3⟩ := IntOp.andi_eq_one.1 h0123
  obtain ⟨h01, r2⟩ := IntOp.andi_eq_one.1 h012
  obtain ⟨r0, r1⟩ := IntOp.andi_eq_one.1 h01
  exact ⟨allReal_of_all a0 _ _ _ r0, allReal_of_all a1 _ _ _ r1, allReal_of_all a2 _ _ _ r2, allReal_of_all a3 _ _ _ r3,
    allReal_of_all a4 _ _ _ r4⟩

end Cert.Pre_finite_inputs.Finite

end
-- ==== Proof.lean ====
/-
  A router: the softmax, over 64 experts, of  (x · Wm + bm) · Wr + br  for 8192 token rows.
  The kernel multiplies the two weight matrices first — it stores  Wf = Wm · Wr  and  bf = bm · Wr + br  once, at its
  first grid point, and then sends each block of 2048 token rows through  x · Wf + bf  and the row softmax. The
  reference multiplies the token rows first. On the extended reals the two groupings of the logits,
      ∑ j, x r j * (∑ k, Wm j k * Wr k l) + (∑ k, bm k * Wr k l + br l)
      ∑ k, (∑ j, x r j * Wm j k + bm k) * Wr k l + br l,
  agree when every entry is a real number (distributivity and an exchange of two finite sums: it fails at the
  infinities, which is where the precondition is used), and the softmax that follows is the same function of the
  logits on both sides: a row maximum taken from -∞, the shifted exponentials, their sum, the quotient.
  The idealization rewrote no operation, so the word-level kernel and its idealization are the same text.
-/
import proofs.«177319_g60138132078666_cont_9to1_m_802_15_alg».proof.Defs
import proofs.«177319_g60138132078666_cont_9to1_m_802_15_alg».proof.Proof.Gen.Kernel
import proofs.«177319_g60138132078666_cont_9to1_m_802_15_alg».proof.Proof.Gen.Kernel.Skeleton
import proofs.«177319_g60138132078666_cont_9to1_m_802_15_alg».proof.Proof.Gen.Kernel.Launch
import proofs.«177319_g60138132078666_cont_9to1_m_802_15_alg».proof.Proof.Gen.Kernel.Points
import proofs.«177319_g60138132078666_cont_9to1_m_802_15_alg».proof.Proof.Gen.Kernel.Frame
import proofs.«177319_g60138132078666_cont_9to1_m_802_15_alg».proof.Proof.Gen.KernelIdeal
import proofs.«177319_g60138132078666_cont_9to1_m_802_15_alg».proof.Proof.Gen.KernelIdeal.Skeleton
import proofs.«177319_g60138132078666_cont_9to1_m_802_15_alg».proof.Proof.Gen.KernelIdeal.Launch
import proofs.«177319_g60138132078666_cont_9to1_m_802_15_alg».proof.Proof.Gen.KernelIdeal.Points
import proofs.«177319_g60138132078666_cont_9to1_m_802_15_alg».proof.Proof.Gen.KernelIdeal.Frame
import proofs.«177319_g60138132078666_cont_9to1_m_802_15_alg».proof.Proof.Gen.ReferenceIdeal
import proofs.«177319_g60138132078666_cont_9to1_m_802_15_alg».proof.Proof.Gen.Pre_finite_inputs
import proofs.«177319_g60138132078666_cont_9to1_m_802_15_alg».proof.Proof.Gen.KernelIdeal.Value
import proofs.«177319_g60138132078666_cont_9to1_m_802_15_alg».proof.Proof.Gen.ReferenceIdeal.Run
import proofs.«177319_g60138132078666_cont_9to1_m_802_15_alg».proof.Proof.Gen.ReferenceIdeal.Read
import proofs.«177319_g60138132078666_cont_9to1_m_802_15_alg».proof.Proof.KernelValue
import proofs.«177319_g60138132078666_cont_9to1_m_802_15_alg».proof.Proof.RefValue
import proofs.«177319_g60138132078666_cont_9to1_m_802_15_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealization. -/
theorem preserves : Cert.preserves_Kernel_KernelIdeal := trivial

/-- The kernel's result array ends at the weights-first softmax of the arguments, the reference's at the token-first
    one of arguments that agree; with every entry real (the precondition) the two are one array. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.Pre_finite_inputs.Finite.allReal_of_pre _ _ _ _ _ (hpre c)
  rw [Cert.ReferenceIdeal.Read.val_main_v18_eq, Cert.ReferenceIdeal.RefValue.result_eq, (hagree c).1, (hagree c).2.1,
    (hagree c).2.2.1, (hagree c).2.2.2.1, (hagree c).2.2.2.2]
  exact Cert.Spec.outT_eq_outW h0 h1 h2 h3 h4

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
